-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x25088 : Shape := ⟨2, ![512, 25088]⟩
abbrev S600x25088 : Shape := ⟨2, ![600, 25088]⟩
abbrev S600 : Shape := ⟨1, ![600]⟩
abbrev S512x600 : Shape := ⟨2, ![512, 600]⟩
abbrev S_ : Shape := ⟨0, ![]⟩

class Facts : Prop where
  bcast_S_S512x25088 : S_.BroadcastsInDim S512x25088 (![] : Fin 0 → Fin S512x25088.rank)
  reducesTo_S512x25088_S_d0_1 : S512x25088.ReducesTo [0, 1] S_
  h_S_ : 0 < S_.numel
  bcast_S_S600x25088 : S_.BroadcastsInDim S600x25088 (![] : Fin 0 → Fin S600x25088.rank)
  reducesTo_S600x25088_S_d0_1 : S600x25088.ReducesTo [0, 1] S_
  bcast_S_S600 : S_.BroadcastsInDim S600 (![] : Fin 0 → Fin S600.rank)
  reducesTo_S600_S_d0 : S600.ReducesTo [0] S_
  bcast_S_S512x600 : S_.BroadcastsInDim S512x600 (![] : Fin 0 → Fin S512x600.rank)
  reducesTo_S512x600_S_d0_1 : S512x600.ReducesTo [0, 1] S_

variable [Facts]

def fn_part1 {F : FTy → Type} [FloatOps F] (main_v13 : IVec S_ 1) (main_v16 : IVec S512x600 1) : IVec S_ 1 :=
  let main_c_5 : IVec S_ 1 := constantI S_ 1 1#1
  let main_v17 : IVec S_ 1 := (fun x v => Host.reduce IntOp.andi x v reducesTo_S512x600_S_d0_1 h_S_) main_v16 main_c_5
  let main_v18 : IVec S_ 1 := andi main_v13 main_v17
  main_v18

def fn {F : FTy → Type} [FloatOps F] (main_arg0 : FVec F S512x25088 .f32) (main_arg1 : FVec F S600x25088 .f32) (main_arg2 : FVec F S600 .f32) (main_arg3 : IVec S512x600 32) (main_arg4 : FVec F S512x600 .f32) : IVec S_ 1 :=
  let main_v0 : FVec F S512x25088 .f32 := Host.absf main_arg0
  let main_cst : FVec F S_ .f32 := constant S_ .f32 0x7F800000#32
  let main_v1 : FVec F S512x25088 .f32 := broadcastInDim S512x25088 ![] bcast_S_S512x25088 main_cst
  let main_v2 : IVec S512x25088 1 := cmpf .olt main_v0 main_v1
  let main_c : IVec S_ 1 := constantI S_ 1 1#1
  let main_v3 : IVec S_ 1 := (fun x v => Host.reduce IntOp.andi x v reducesTo_S512x25088_S_d0_1 h_S_) main_v2 main_c
  let main_v4 : FVec F S600x25088 .f32 := Host.absf main_arg1
  let main_cst_0 : FVec F S_ .f32 := constant S_ .f32 0x7F800000#32
  let main_v5 : FVec F S600x25088 .f32 := broadcastInDim S600x25088 ![] bcast_S_S600x25088 main_cst_0
  let main_v6 : IVec S600x25088 1 := cmpf .olt main_v4 main_v5
  let main_c_1 : IVec S_ 1 := constantI S_ 1 1#1
  let main_v7 : IVec S_ 1 := (fun x v => Host.reduce IntOp.andi x v reducesTo_S600x25088_S_d0_1 h_S_) main_v6 main_c_1
  let main_v8 : IVec S_ 1 := andi main_v3 main_v7
  let main_v9 : FVec F S600 .f32 := Host.absf main_arg2
  let main_cst_2 : FVec F S_ .f32 := constant S_ .f32 0x7F800000#32
  let main_v10 : FVec F S600 .f32 := broadcastInDim S600 ![] bcast_S_S600 main_cst_2
  let main_v11 : IVec S600 1 := cmpf .olt main_v9 main_v10
  let main_c_3 : IVec S_ 1 := constantI S_ 1 1#1
  let main_v12 : IVec S_ 1 := (fun x v => Host.reduce IntOp.andi x v reducesTo_S600_S_d0 h_S_) main_v11 main_c_3
  let main_v13 : IVec S_ 1 := andi main_v8 main_v12
  let main_v14 : FVec F S512x600 .f32 := Host.absf main_arg4
  let main_cst_4 : FVec F S_ .f32 := constant S_ .f32 0x7F800000#32
  let main_v15 : FVec F S512x600 .f32 := broadcastInDim S512x600 ![] bcast_S_S512x600 main_cst_4
  let main_v16 : IVec S512x600 1 := cmpf .olt main_v14 main_v15
  fn_part1 (F := F) main_v13 main_v16
-- ==== Kernel.lean ====
abbrev S512x25088 : Shape := ⟨2, ![512, 25088]⟩
abbrev S600x25088 : Shape := ⟨2, ![600, 25088]⟩
abbrev S600 : Shape := ⟨1, ![600]⟩
abbrev S512x600 : Shape := ⟨2, ![512, 600]⟩
abbrev S1x600 : Shape := ⟨2, ![1, 600]⟩
abbrev S512x3584 : Shape := ⟨2, ![512, 3584]⟩
abbrev S600x3584 : Shape := ⟨2, ![600, 3584]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S512x25088, .f32⟩
  | .hbm, ⟨1, _⟩ => ⟨S600x25088, .f32⟩
  | .hbm, ⟨2, _⟩ => ⟨S600, .f32⟩
  | .hbm, ⟨3, _⟩ => ⟨S512x600, .i32⟩
  | .hbm, ⟨4, _⟩ => ⟨S512x600, .f32⟩
  | .hbm, ⟨5, _⟩ => ⟨S1x600, .f32⟩
  | .hbm, ⟨6, _⟩ => ⟨S512x600, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x3584, .f32⟩
  | .local _ .vmem, ⟨1, _⟩ => ⟨S512x3584, .f32⟩
  | .local _ .vmem, ⟨2, _⟩ => ⟨S600x3584, .f32⟩
  | .local _ .vmem, ⟨3, _⟩ => ⟨S600x3584, .f32⟩
  | .local _ .vmem, ⟨4, _⟩ => ⟨S1x600, .f32⟩
  | .local _ .vmem, ⟨5, _⟩ => ⟨S512x600, .i32⟩
  | .local _ .vmem, ⟨6, _⟩ => ⟨S512x600, .f32⟩
  | .local _ .vmem, ⟨7, _⟩ => ⟨S512x600, .f32⟩
  | _, _ => ⟨S512x25088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S600x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x600 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x600 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S600_S1x600 : S600.ShapeCasts S1x600
  inb_S512x600_S512x600_0_0 : ∀ a, (![0, 0] : Fin 2 → Nat) a + S512x600.size a ≤ S512x600.size a
  h_S512x600 : 0 < S512x600.numel
  inb_S512x3584_S512x3584_0_0 : ∀ a, (![0, 0] : Fin 2 → Nat) a + S512x3584.size a ≤ S512x3584.size a
  h_S512x3584 : 0 < S512x3584.numel
  bitsLt_bf16_f32 : FTy.bits .bf16 < FTy.bits .f32
  inb_S600x3584_S600x3584_0_0 : ∀ a, (![0, 0] : Fin 2 → Nat) a + S600x3584.size a ≤ S600x3584.size a
  h_S600x3584 : 0 < S600x3584.numel
  shapeCasts_S512x600_S512x600 : S512x600.ShapeCasts S512x600
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S512x600 : S1x600.Broadcasts S512x600
  reducesTo_S512x600_S_d0_1 : S512x600.ReducesTo [0, 1] S_
  h_S_ : 0 < S_.numel
  dot_S512x3584_S600x3584_S512x600_1_1_0_0_n_n_wf : DotDims.WF S512x3584 S600x3584 S512x600 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3584.size a ≤ S512x25088.size a
  hwx0_0 : ∀ i : grid0.Coords, EltTy.bits .f32 = 32 ∨ (Rect.block (s := S512x25088) S512x3584.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S600x3584.size a ≤ S600x25088.size a
  hwx0_1 : ∀ i : grid0.Coords, EltTy.bits .f32 = 32 ∨ (Rect.block (s := S600x25088) S600x3584.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x600.size a ≤ S1x600.size a
  hwx0_2 : ∀ i : grid0.Coords, EltTy.bits .f32 = 32 ∨ (Rect.block (s := S1x600) S1x600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x600.size a ≤ S512x600.size a
  hwx0_3 : ∀ i : grid0.Coords, EltTy.bits .i32 = 32 ∨ (Rect.block (s := S512x600) S512x600.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x600.size a ≤ S512x600.size a
  hwx0_4 : ∀ i : grid0.Coords, EltTy.bits .f32 = 32 ∨ (Rect.block (s := S512x600) S512x600.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x600.size a ≤ S512x600.size a
  hwx0_5 : ∀ i : grid0.Coords, EltTy.bits .f32 = 32 ∨ (Rect.block (s := S512x600) S512x600.size (cc0_transform_5 i) (hinb0_5 i)).WholeWords (EltTy.packing .f32)

variable [Facts₀]

def dot_S512x3584_S600x3584_S512x600_1_1_0_0_n_n : DotDims S512x3584 S600x3584 S512x600 where
  lhsContracting := [1]
  rhsContracting := [1]
  lhsNonContracting := [0]
  rhsNonContracting := [0]
  lhsBatch := []
  rhsBatch := []
  wf := dot_S512x3584_S600x3584_S512x600_1_1_0_0_n_n_wf

abbrev win0_0 : Pipeline.Window sig grid0 :=
  Pipeline.Window.ofSpec (Memref.whole main_arg0) S512x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S600x3584.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x600.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x25088 : Shape := ⟨2, ![512, 25088]⟩
abbrev S600x25088 : Shape := ⟨2, ![600, 25088]⟩
abbrev S600 : Shape := ⟨1, ![600]⟩
abbrev S512x600 : Shape := ⟨2, ![512, 600]⟩
abbrev S1x600 : Shape := ⟨2, ![1, 600]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S512x25088, .f32⟩
  | .hbm, ⟨1, _⟩ => ⟨S600x25088, .f32⟩
  | .hbm, ⟨2, _⟩ => ⟨S600, .f32⟩
  | .hbm, ⟨3, _⟩ => ⟨S512x600, .i32⟩
  | .hbm, ⟨4, _⟩ => ⟨S512x600, .f32⟩
  | .hbm, ⟨5, _⟩ => ⟨S512x600, .f32⟩
  | .hbm, ⟨6, _⟩ => ⟨S1x600, .f32⟩
  | .hbm, ⟨7, _⟩ => ⟨S512x600, .f32⟩
  | .hbm, ⟨8, _⟩ => ⟨S512x600, .f32⟩
  | .hbm, ⟨9, _⟩ => ⟨S512x600, .f32⟩
  | .hbm, ⟨10, _⟩ => ⟨S512x600, .f32⟩
  | .hbm, ⟨11, _⟩ => ⟨S_, .f32⟩
  | .hbm, ⟨12, _⟩ => ⟨S512x600, .f32⟩
  | .hbm, ⟨13, _⟩ => ⟨S512x600, .f32⟩
  | .hbm, ⟨14, _⟩ => ⟨S512x600, .f32⟩
  | .hbm, ⟨15, _⟩ => ⟨S512x600, .f32⟩
  | .hbm, ⟨16, _⟩ => ⟨S512x600, .i1⟩
  | .hbm, ⟨17, _⟩ => ⟨S512x600, .f32⟩
  | .hbm, ⟨18, _⟩ => ⟨S512x600, .f32⟩
  | .hbm, ⟨19, _⟩ => ⟨S512x600, .f32⟩
  | .hbm, ⟨20, _⟩ => ⟨S512x600, .f32⟩
  | .hbm, ⟨21, _⟩ => ⟨S512x600, .f32⟩
  | .hbm, ⟨22, _⟩ => ⟨S512x600, .f32⟩
  | .hbm, ⟨23, _⟩ => ⟨S512x600, .f32⟩
  | .hbm, ⟨24, _⟩ => ⟨S512x600, .f32⟩
  | .hbm, ⟨25, _⟩ => ⟨S512x600, .f32⟩
  | .hbm, ⟨26, _⟩ => ⟨S512x600, .f32⟩
  | .hbm, ⟨27, _⟩ => ⟨S_, .f32⟩
  | .hbm, ⟨28, _⟩ => ⟨S512x600, .f32⟩
  | .hbm, ⟨29, _⟩ => ⟨S512x600, .f32⟩
  | .hbm, ⟨30, _⟩ => ⟨S512x600, .f32⟩
  | .hbm, ⟨31, _⟩ => ⟨S512x600, .f32⟩
  | .hbm, ⟨32, _⟩ => ⟨S_, .f32⟩
  | .hbm, ⟨33, _⟩ => ⟨S512x600, .f32⟩
  | .hbm, ⟨34, _⟩ => ⟨S512x600, .f32⟩
  | .hbm, ⟨35, _⟩ => ⟨S512x600, .f32⟩
  | .hbm, ⟨36, _⟩ => ⟨S512x600, .f32⟩
  | .hbm, ⟨37, _⟩ => ⟨S512x600, .i1⟩
  | .hbm, ⟨38, _⟩ => ⟨S512x600, .f32⟩
  | .hbm, ⟨39, _⟩ => ⟨S512x600, .f32⟩
  | .hbm, ⟨40, _⟩ => ⟨S512x600, .f32⟩
  | .hbm, ⟨41, _⟩ => ⟨S512x600, .f32⟩
  | .hbm, ⟨42, _⟩ => ⟨S512x600, .f32⟩
  | .hbm, ⟨43, _⟩ => ⟨S512x600, .f32⟩
  | .hbm, ⟨44, _⟩ => ⟨S512x600, .f32⟩
  | .hbm, ⟨45, _⟩ => ⟨S512x600, .f32⟩
  | .hbm, ⟨46, _⟩ => ⟨S512x600, .f32⟩
  | .hbm, ⟨47, _⟩ => ⟨S512x600, .f32⟩
  | .hbm, ⟨48, _⟩ => ⟨S512x600, .f32⟩
  | .hbm, ⟨49, _⟩ => ⟨S512x600, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S512x25088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_0 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_v16 : Ref sig .tc := ⟨.hbm, 54, rfl⟩

abbrev nD : Nat := 1
abbrev τ : Topo := Topo.v7x

variable {F : FTy → Type} [FloatOps F]

class Facts₀ : Prop where
  bcast_S600_S1x600_1 : S600.BroadcastsInDim S1x600 (![1] : Fin 1 → Fin S1x600.rank)
  bcast_S1x600_S512x600_0_1 : S1x600.BroadcastsInDim S512x600 (![0, 1] : Fin 2 → Fin S512x600.rank)
  bcast_S_S512x600 : S_.BroadcastsInDim S512x600 (![] : Fin 0 → Fin S512x600.rank)
  reducesTo_S512x600_S_d0_1 : S512x600.ReducesTo [0, 1] S_
  h_S_ : 0 < S_.numel
  dot_S512x25088_S600x25088_S512x600_1_1_0_0_n_n_wf : DotDims.WF S512x25088 S600x25088 S512x600 [1] [1] [0] [0] [] []

variable [Facts₀]

def dot_S512x25088_S600x25088_S512x600_1_1_0_0_n_n : DotDims S512x25088 S600x25088 S512x600 where
  lhsContracting := [1]
  rhsContracting := [1]
  lhsNonContracting := [0]
  rhsNonContracting := [0]
  lhsBatch := []
  rhsBatch := []
  wf := dot_S512x25088_S600x25088_S512x600_1_1_0_0_n_n_wf

class Facts : Prop extends Facts₀ where

variable [Facts]
-- ==== Proof.KPieces.lean ====
/-
  The three control cases of the loss kernel's body, read as values.

  The body runs once per block of 3584 feature columns (seven blocks). Its output block, the whole 512 x 600
  array, stays resident across the seven grid points and serves as the accumulator of the scores:
    first point     the block is reset to zero, then the point's partial product is added to it;
    middle points   the point's partial product is added to what the point before left;
    last point      the partial product is added, and the block is then overwritten by the masked loss of the
                    accumulated scores.
  Each lemma says what one case leaves in the output block as ONE pure term of the blocks it loaded: the
  covering stores read back, a load that follows a store of the whole block reading that store's value.
-/
import proofs.«180961_j55602646614714_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- One accumulation step: the block holding `acc`, plus the product of the two loaded column blocks. -/
abbrev step (x0 : Vec F S512x3584 .f32) (x1 : Vec F S600x3584 .f32) (acc : Vec F S512x600 .f32) : Vec F S512x600 .f32 :=
  k0_pay2 x0 x1 acc

/-- The masked loss of the accumulated scores `acc`, the bias row `x2`, the labels `x3` and the mask `x4`. -/
abbrev loss (acc : Vec F S512x600 .f32) (x2 : Vec F S1x600 .f32) (x3 : Vec F S512x600 .i32) (x4 : Vec F S512x600 .f32) :
    Vec F S512x600 .f32 :=
  k0_pay3 x4 (k0_pay6 acc x2 x3) (k0_pay7 x3) (k0_pay9 acc x2) (k0_pay11 acc x2) (k0_pay12 acc x2) (k0_pay13 acc x2)
    (k0_pay14 (F := F))

/-- A middle point leaves the previous contents plus the point's partial product. -/
theorem out_B (c : Dev nD) (i : grid0.Coords) (arg1 : Memref sig .tc .vmem S512x3584 .f32) (harg1 : arg1.IsWhole) (arg2 : Memref sig .tc .vmem S600x3584 .f32) (harg2 : arg2.IsWhole) (arg3 : Memref sig .tc .vmem S1x600 .f32) (harg3 : arg3.IsWhole) (arg4 : Memref sig .tc .vmem S512x600 .i32) (harg4 : arg4.IsWhole) (arg5 : Memref sig .tc .vmem S512x600 .f32) (harg5 : arg5.IsWhole) (arg6 : Memref sig .tc .vmem S512x600 .f32) (harg6 : arg6.IsWhole) (hc0 : ¬cond0_0 i) (hc1 : ¬cond0_1 i) (x0 : Vec F S512x3584 .f32) (x1 : Vec F S600x3584 .f32) (x2 : Vec F S1x600 .f32) (x3 : Vec F S512x600 .i32) (x4 : Vec F S512x600 .f32) (xo5 : Vec F S512x600 .f32) :
    out0_B_5 c i arg1 harg1 arg2 harg2 arg3 harg3 arg4 harg4 arg5 harg5 arg6 harg6 hc0 hc1 x0 x1 x2 x3 x4 xo5 = step x0 x1 xo5 := by
  unfold out0_B_5
  rw [View.read_writes_eq_canon _ _ _ (cover0_B_5 c i arg1 harg1 arg2 harg2 arg3 harg3 arg4 harg4 arg5 harg5 arg6 harg6 hc0 hc1 x0 x1 x2 x3 x4 xo5)]
  unfold kernelRun0_B
  dsimp only
  rw [View.canon_unit_zero hz]
  simp only [View.readAt_eq_ld, harg1.read_unread, harg2.read_unread, harg6.read_unread,
    View.ld_unit_zero (S := S512x3584) hz, View.ld_unit_zero (S := S600x3584) hz, View.ld_unit_zero (S := S512x600) hz]

/-- The first point leaves the zero block plus the point's partial product: the load after the reset reads the zeros. -/
theorem out_A (c : Dev nD) (i : grid0.Coords) (arg1 : Memref sig .tc .vmem S512x3584 .f32) (harg1 : arg1.IsWhole) (arg2 : Memref sig .tc .vmem S600x3584 .f32) (harg2 : arg2.IsWhole) (arg3 : Memref sig .tc .vmem S1x600 .f32) (harg3 : arg3.IsWhole) (arg4 : Memref sig .tc .vmem S512x600 .i32) (harg4 : arg4.IsWhole) (arg5 : Memref sig .tc .vmem S512x600 .f32) (harg5 : arg5.IsWhole) (arg6 : Memref sig .tc .vmem S512x600 .f32) (harg6 : arg6.IsWhole) (hc0 : cond0_0 i) (hc1 : ¬cond0_1 i) (x0 : Vec F S512x3584 .f32) (x1 : Vec F S600x3584 .f32) (x2 : Vec F S1x600 .f32) (x3 : Vec F S512x600 .i32) (x4 : Vec F S512x600 .f32) :
    out0_A_5 c i arg1 harg1 arg2 harg2 arg3 harg3 arg4 harg4 arg5 harg5 arg6 harg6 hc0 hc1 x0 x1 x2 x3 x4 = step x0 x1 (k0_pay1 (F := F)) := by
  unfold out0_A_5
  rw [View.read_writes_eq_canon _ _ _ (cover0_A_5 c i arg1 harg1 arg2 harg2 arg3 harg3 arg4 harg4 arg5 harg5 arg6 harg6 hc0 hc1 x0 x1 x2 x3 x4)]
  unfold kernelRun0_A
  dsimp only
  sl_unfold_words
  rw [View.canon_cons_unit_zero (S := S512x600) hz, View.readCov_unit_zero (S := S512x600) _ hz]
  simp only [View.readAt_eq_ld, harg1.read_unread, harg2.read_unread,
    View.ld_unit_zero (S := S512x3584) hz, View.ld_unit_zero (S := S600x3584) hz]

/-- The last point leaves the masked loss of the scores accumulated through it: every load of the output block
    after the accumulating store reads that store's value. -/
theorem out_C (c : Dev nD) (i : grid0.Coords) (arg1 : Memref sig .tc .vmem S512x3584 .f32) (harg1 : arg1.IsWhole) (arg2 : Memref sig .tc .vmem S600x3584 .f32) (harg2 : arg2.IsWhole) (arg3 : Memref sig .tc .vmem S1x600 .f32) (harg3 : arg3.IsWhole) (arg4 : Memref sig .tc .vmem S512x600 .i32) (harg4 : arg4.IsWhole) (arg5 : Memref sig .tc .vmem S512x600 .f32) (harg5 : arg5.IsWhole) (arg6 : Memref sig .tc .vmem S512x600 .f32) (harg6 : arg6.IsWhole) (hc0 : ¬cond0_0 i) (hc1 : cond0_1 i) (x0 : Vec F S512x3584 .f32) (x1 : Vec F S600x3584 .f32) (x2 : Vec F S1x600 .f32) (x3 : Vec F S512x600 .i32) (x4 : Vec F S512x600 .f32) (xo5 : Vec F S512x600 .f32) :
    out0_C_5 c i arg1 harg1 arg2 harg2 arg3 harg3 arg4 harg4 arg5 harg5 arg6 harg6 hc0 hc1 x0 x1 x2 x3 x4 xo5 = loss (step x0 x1 xo5) x2 x3 x4 := by
  unfold out0_C_5
  rw [View.read_writes_eq_canon _ _ _ (cover0_C_5 c i arg1 harg1 arg2 harg2 arg3 harg3 arg4 harg4 arg5 harg5 arg6 harg6 hc0 hc1 x0 x1 x2 x3 x4 xo5)]
  unfold kernelRun0_C
  dsimp only
  sl_unfold_words
  rw [View.canon_cons_unit_zero (S := S512x600) hz, View.readCov_unit_zero (S := S512x600) _ hz]
  simp only [View.readAt_eq_ld, harg1.read_unread, harg2.read_unread, harg3.read_unread, harg4.read_unread,
    harg5.read_unread, harg6.read_unread,
    View.ld_unit_zero (S := S512x3584) hz, View.ld_unit_zero (S := S600x3584) hz, View.ld_unit_zero (S := S512x600) hz,
    View.ld_unit_zero (S := S1x600) hz]

end Cert.KernelIdeal.Pieces

end
-- ==== Proof.KValue.lean ====
/-
  The kernel's run read as a value, at any float instance.

  After grid point n < 6 the resident output block holds the running sum of the first n + 1 partial products of
  the feature and weight column blocks, started from the zero block (`accAt`, by recursion on the point; shown
  equal to what the frame run found by induction on the point). At the last point the block is overwritten by
  the masked loss of the full sum, and that point's write-back is the only one: its block is the whole
  512 x 600 array, so the result array ends holding exactly that block (`final5`). The three host operations
  after the region then sum the array, negate the sum and divide by the number of elements (`tail_eq`).
-/
import proofs.«180961_j55602646614714_2_alg».proof.Proof.KPieces
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces

variable {F : FTy → Type} [FloatOps F]
variable (m : (ℓ : Loc nD τ sig) → Buf (Elt F) ℓ) (ρ : Dev nD → PrngReg)

/-- The running sum of partial products after point `n`: the zero block plus the first product, then one more
    product per point. -/
def accAt (c : Dev nD) : (n : ℕ) → n < cfg0.N → Vec F S512x600 .f32
  | 0, h => step (iblk m c 0 ⟨0, h⟩) (iblk m c 1 ⟨0, h⟩) (k0_pay1 (F := F))
  | n + 1, h => step (iblk m c 0 ⟨n + 1, h⟩) (iblk m c 1 ⟨n + 1, h⟩) (accAt c n (Nat.lt_of_succ_lt h))

/-- Before the last point the output block holds the running sum: by induction on the point. -/
theorem outsAt_mid (c : Dev nD) : ∀ (n : ℕ) (h : n < cfg0.N), n < 6 → outsAt0 m c n h = accAt m c n h
  | 0, h, _ => (outsAt0_A m c ⟨0, h⟩ rfl (by dsimp only; omega)).trans (out_A ..)
  | n + 1, h, h6 => by
    have hB0 : ¬(⟨n + 1, h⟩ : Fin cfg0.N).val % 7 = 0 := by dsimp only; omega
    have hB1 : ¬(⟨n + 1, h⟩ : Fin cfg0.N).val % 7 = 6 := by dsimp only; omega
    rw [outsAt0_B m c ⟨n + 1, h⟩ hB0 hB1, out_B]
    show step _ _ (outsAt0 m c n _) = step _ _ (accAt m c n _)
    rw [outsAt_mid c n _ (by omega)]

/-- The masked loss of the full sum, as contents of the result array (the output block IS the array). -/
abbrev result (c : Dev nD) : Buf (Elt F) ((c : Thread nD τ).loc main_v1) :=
  loss (accAt m c 6 t0_6.isLt) (iblk m c 2 t0_6) (iblk m c 3 t0_6) (iblk m c 4 t0_6)

/-- At the last point the output block holds the masked loss of the full sum. -/
theorem outsAt_last (c : Dev nD) : outsAt0 m c t0_6.val t0_6.isLt = result m c := by
  have hC0 : ¬(t0_6 : Fin cfg0.N).val % 7 = 0 := by decide
  have hC1 : (t0_6 : Fin cfg0.N).val % 7 = 6 := by decide
  rw [outsAt0_C m c t0_6 hC0 hC1, out_C]
  exact congrArg
    (fun a => loss (step (iblk m c 0 t0_6) (iblk m c 1 t0_6) a) (iblk m c 2 t0_6) (iblk m c 3 t0_6) (iblk m c 4 t0_6))
    (outsAt_mid m c 5 (Nat.lt_of_le_of_lt (Nat.sub_le t0_6.val 1) t0_6.isLt) (by decide))

/-- The one write-back, at the last point, writes that block: block (0, 0) of the array through zero offsets is
    the array. -/
theorem flushed_eq (c : Dev nD) (t : Fin cfg0.N) (hf : (cfg0.win 5).flush t = true) :
    (dats m 0 c).flushed 5 t = ((cfg0.win 5).blk t).view.read (Elt F) (result m c) := by
  have hN : cfg0.N = 7 := N_0
  have h6 : t.val = 6 := by have := (flush0_5 t).mp hf; have := t.isLt; omega
  obtain rfl : t = t0_6 := Fin.ext h6
  show (cfg0.win 5).cut (grid0.coords t0_6) ((dats m 0 c).after 5 t0_6) = _
  rw [after0_5, outsAt_last]
  have hz' : (fun a => win0_5.index t0_6 a * main_v1.ty.shape.size a) = fun _ => 0 := funext fun a => by fin_cases a <;> decide
  exact (Memref.read_access_unit_zero (Elt F) main_v1 hz' (fun a => by rw [congrFun hz' a]; simp) (result m c)).symm

/-- So the result array ends holding the masked loss of the full sum: the last point's block covers it. -/
theorem final5 (c : Dev nD) : (dats m 0 c).arrAt 5 cfg0.N = result m c :=
  (dats m 0 c).arrAt_eq_of_cover 5 (result m c) (flushed_eq m c) fun i =>
    ⟨t0_6, (flush0_5 t0_6).mpr (by decide), by
      show i ∈ ((View.whole main_v1).slice (win0_5.rect t0_6)).set
      rw [View.set_slice_whole, Rect.mem_set_unit]
      intro a
      have h0 : (i 0 : Nat) < 512 := (i 0).isLt
      have h1 : (i 1 : Nat) < 600 := (i 1).isLt
      match a with
      | ⟨0, _⟩ => show win0_5.index t0_6 0 * win0_5.size 0 ≤ (i 0 : Nat) ∧ (i 0 : Nat) < win0_5.index t0_6 0 * win0_5.size 0 + win0_5.xsize (grid0.coords t0_6) 0
                  rw [show win0_5.index t0_6 0 * win0_5.size 0 = 0 from by decide +kernel, show win0_5.xsize (grid0.coords t0_6) 0 = 512 from by decide +kernel]; omega
      | ⟨1, _⟩ => show win0_5.index t0_6 1 * win0_5.size 1 ≤ (i 1 : Nat) ∧ (i 1 : Nat) < win0_5.index t0_6 1 * win0_5.size 1 + win0_5.xsize (grid0.coords t0_6) 1
                  rw [show win0_5.index t0_6 1 * win0_5.size 1 = 0 from by decide +kernel, show win0_5.xsize (grid0.coords t0_6) 1 = 600 from by decide +kernel]; omega⟩

/-- The host operations after the region, as one function of the array they read: its total, negated, over the
    number of elements. -/
def tail (x : (⟨S512x600, .f32⟩ : BufTy).Contents (Elt F)) : (⟨S_, .f32⟩ : BufTy).Contents (Elt F) :=
  Host.divf (Host.negf (Host.reduceAdd x (constant S_ .f32 0x00000000#32) reducesTo_S512x600_S_d0_1 h_S_))
    (constant S_ .f32 0x48960000#32)

/-- What the program's result buffer holds after the host operations that follow the region. -/
theorem tail_eq (c : Dev nD) :
    Pipeline.afterTail₀ cfgs (dats m) 0 (V0 m) [hostOps1] c main_v4 = tail (result m c) := by
  unfold Pipeline.afterTail₀
  show StableHlo.after hostOps1 _ (Proc.devRef .tc main_v4) = _
  after_results
  exact congrArg tail ((Pipeline.withArrays_arr spec0 launch0.win.arr_inj c (V0 m c)
    (fun w => (dats m 0 c).arrAt w (cfgs 0).N) 5).trans (final5 m c))

end Cert.KernelIdeal.KValue

end
-- ==== Proof.Algebra.lean ====
/-
  The mathematics the two programs are joined by, with no program in sight.

  * A product of an M x K matrix with the TRANSPOSE of an N x K matrix, read at entry (a, b), is the sum over the
    K columns of the products of the two rows' entries (`contrT_apply`), whether it is the matrix unit's product
    into an accumulator or the host's.
  * A sum over n * b consecutive terms is the sum of n consecutive blocks of b terms (`sum_range_blocks`): this is
    what lets a product over all columns be accumulated one block of columns at a time. Addition of extended reals
    is commutative and associative, so no finiteness is needed for it.
  * Negation commutes with division by the (nonzero, finite) number of elements (`div_neg_count`).
-/
import Idealize.ShloMosaic.PureOps.Ideal
import Idealize.ShloMosaic.PureOps.Ideal.Laws
import Idealize.ShloMosaic.Lib.ValueIdx

noncomputable section

namespace Cert.Alg

open Idealize.ShloMosaic Idealize.ShloMosaic.ValueIdx Finset

/-- The pattern of 307200.0, the number of elements of a 512 x 600 array, denotes the real 307200. -/
theorem ofBits_count : Ideal.ofBits .f32 0x48960000#32 = ((307200 : ℝ) : EReal) := by
  simp [Ideal.ofBits, Ideal.ieee, -EReal.coe_mul]; norm_num

/-- Dividing the negated total by the number of elements is negating the quotient: division by a nonzero real is
    a product, and a sign leaves a product, at the infinities too. -/
theorem div_neg_count (s : EReal) :
    Ideal.div (-s) (Ideal.ofBits .f32 0x48960000#32) = -(Ideal.div s (Ideal.ofBits .f32 0x48960000#32)) := by
  rw [ofBits_count, Ideal.div_coe (by norm_num), Ideal.div_coe (by norm_num), neg_mul]

/-- A sum of n * b consecutive terms, block by block. -/
theorem sum_range_blocks {M : Type*} [AddCommMonoid M] (b : ℕ) (f : ℕ → M) :
    ∀ n : ℕ, ∑ k ∈ range (n * b), f k = ∑ t ∈ range n, ∑ k ∈ range b, f (t * b + k)
  | 0 => by simp
  | n + 1 => by rw [Nat.succ_mul, sum_range_add, sum_range_blocks b f n, sum_range_succ]

/-! ## The masked loss at one element, as each program spells it -/

/-- The extended real the pattern of +0.0 denotes. -/
abbrev Z : EReal := Ideal.ofBits .f32 0x00000000#32

/-- softplus z = log (1 + e^z), computed as max z 0 + log1p (e^(-|z|)) behind a guard `z ≠ z` that is dead on the
    extended reals; the reference's spelling (negations written as negations). -/
def sp (z : EReal) : EReal :=
  Scalar.select (Ideal.cmp .une (z - Z) (z - Z)) (z + Z)
    (max z Z + Ideal.log1p (Ideal.exp (-(max (z - Z) (-(z - Z))))))

/-- log (sigmoid x) = -softplus (-x). -/
def ls (x : EReal) : EReal := -(sp (-x))

/-- The masked loss at one element: mask · (y · log σ(s) + (1 - y) · log σ(-s)). -/
def lossAt (s y mk : EReal) : EReal :=
  mk * (y * ls s + (Ideal.ofBits .f32 0x3F800000#32 - y) * ls (-s))

/-- The kernel's spelling of the same three: every negation is a subtraction from zero, and the dead guard is
    the ordered comparison. -/
def spK (z : EReal) : EReal :=
  Scalar.select (Ideal.cmp .one (z - Z) (z - Z)) (z + Z)
    (max z Z + Ideal.log1p (Ideal.exp (Z - (max (z - Z) (-(z - Z))))))
def lsK (x : EReal) : EReal := Z - spK (Z - x)
def lossAtK (s y mk : EReal) : EReal :=
  mk * (y * lsK s + (Ideal.ofBits .f32 0x3F800000#32 - y) * lsK (Z - s))

/-- On the extended reals nothing is unordered: the ordered "not equal" is the unordered one. -/
theorem cmp_one (x y : EReal) : Ideal.cmp .one x y = Ideal.cmp .une x y := rfl

/-- The two spellings are one function: zero minus x is minus x. -/
theorem lossAtK_eq (s y mk : EReal) : lossAtK s y mk = lossAt s y mk := by
  simp only [lossAtK, lsK, spK, lossAt, ls, sp, Z, Ideal.ofBits_zero_f32, cmp_one, zero_sub]

section Dot

variable {M N K : Nat}

/-- The dimension numbers of "rows of the left times rows of the right": both operands contract their axis 1. -/
abbrev dotT (w : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], w⟩

/-- The contraction at entry (a, b) is the sum over the columns c of A(a, c) · B(b, c). -/
theorem contrT_apply (w : DotDims.WF ⟨2, ![M, K]⟩ ⟨2, ![N, K]⟩ ⟨2, ![M, N]⟩ [1] [1] [0] [0] [] [])
    (A : (⟨2, ![M, K]⟩ : Shape).Idx → EReal) (B : (⟨2, ![N, K]⟩ : Shape).Idx → EReal) (a : Fin M) (b : Fin N) :
    ∑ k : (dotT w).contr.Idx, A ((dotT w).lhsIdx (ix2 a b) k) * B ((dotT w).rhsIdx (ix2 a b) k)
      = ∑ c : Fin K, A (ix2 a c) * B (ix2 b c) := by
  rw [← Equiv.sum_comp (contrEquiv1 (dotT w) K rfl rfl).symm]
  refine Finset.sum_congr rfl fun c _ => ?_
  have c2 := contrEquiv1_symm_val (dotT w) K rfl rfl c
  have l2 : (dotT w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (dotT w).rhsIdx (ix2 a b) ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- Column k's term of the product at entry (a, b), as a function of a natural number (zero past the last column). -/
def term (A : (⟨2, ![M, K]⟩ : Shape).Idx → EReal) (B : (⟨2, ![N, K]⟩ : Shape).Idx → EReal) (a : Fin M) (b : Fin N)
    (k : ℕ) : EReal :=
  if h : k < K then A (ix2 a ⟨k, h⟩) * B (ix2 b ⟨k, h⟩) else 0

/-- The whole product at (a, b) is the sum of its K terms. -/
theorem sum_cols (A : (⟨2, ![M, K]⟩ : Shape).Idx → EReal) (B : (⟨2, ![N, K]⟩ : Shape).Idx → EReal) (a : Fin M)
    (b : Fin N) : ∑ c : Fin K, A (ix2 a c) * B (ix2 b c) = ∑ k ∈ range K, term A B a b k := by
  rw [← Fin.sum_univ_eq_sum_range]
  exact Finset.sum_congr rfl fun c _ => by rw [term, dif_pos c.isLt]

/-- The product of block t of the columns (Kb columns from column t * Kb on) at (a, b) is the sum of that block's
    terms. -/
theorem sum_block {Kb : Nat} (A : (⟨2, ![M, K]⟩ : Shape).Idx → EReal) (B : (⟨2, ![N, K]⟩ : Shape).Idx → EReal)
    (X0 : (⟨2, ![M, Kb]⟩ : Shape).Idx → EReal) (X1 : (⟨2, ![N, Kb]⟩ : Shape).Idx → EReal) (t : ℕ)
    (hK : t * Kb + Kb ≤ K)
    (h0 : ∀ (a : Fin M) (k : Fin Kb), X0 (ix2 a k) = A (ix2 a ⟨t * Kb + k.val, by have := k.isLt; omega⟩))
    (h1 : ∀ (b : Fin N) (k : Fin Kb), X1 (ix2 b k) = B (ix2 b ⟨t * Kb + k.val, by have := k.isLt; omega⟩))
    (a : Fin M) (b : Fin N) :
    ∑ k : Fin Kb, X0 (ix2 a k) * X1 (ix2 b k) = ∑ k ∈ range Kb, term A B a b (t * Kb + k) := by
  rw [← Fin.sum_univ_eq_sum_range (fun k => term A B a b (t * Kb + k))]
  exact Finset.sum_congr rfl fun k _ => by
    rw [h0, h1, term, dif_pos (by have := k.isLt; omega)]

end Dot

end Cert.Alg

end
-- ==== Proof.KRead.lean ====
/-
  The kernel's result array read at one index, on the extended reals.

  Block t of the feature matrix is its columns 3584 t, ..., 3584 t + 3583 (all 512 rows), and likewise for the weight
  matrix (all 600 rows); the bias row, the labels and the mask are each one block, the whole array. One accumulation
  step adds, at entry (p, q), the sum over the block's columns of feature(p, ·) · weight(q, ·) to what was there
  (`step_apply`): rounding the operands to bfloat16 is the identity on the extended reals, and the product into a
  zero accumulator is the plain sum. By induction on the grid point the running sum after point n is the sum of the
  terms of the columns below 3584 (n + 1) (`accAt_apply`), so after the last point it is the whole contraction over
  the 25088 columns, and the block the last point leaves is the masked loss of that score plus the bias
  (`result_apply`).
-/
import proofs.«180961_j55602646614714_2_alg».proof.Proof.KValue
import proofs.«180961_j55602646614714_2_alg».proof.Proof.Algebra
import Idealize.ShloMosaic.Lib.ValueLayout
import Idealize.ShloMosaic.Lib.Pipeline.Value

noncomputable section

open Idealize.ShloMosaic Idealize.ShloMosaic.TcCoe Idealize.SL.Sem

namespace Cert.KernelIdeal.KRead

open Cert.KernelIdeal Cert.KernelIdeal.Gen Cert.KernelIdeal.Pieces Cert.KernelIdeal.KValue
open Idealize.ShloMosaic.ValueIdx Finset

variable (m : (ℓ : Loc nD τ sig) → Buf (Elt Ideal) ℓ)

/-! ## Which block each window reads at a grid point -/

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

theorem lt7 (t : Fin cfg0.N) : t.val < 7 := lt_of_lt_of_eq t.isLt (show cfg0.N = 7 from N_0)

/-- The arguments as arrays of extended reals (and of label words). -/
abbrev A0 (c : Dev nD) : (⟨2, ![512, 25088]⟩ : Shape).Idx → EReal := m ((c : Thread nD τ).loc main_arg0)
abbrev A1 (c : Dev nD) : (⟨2, ![600, 25088]⟩ : Shape).Idx → EReal := m ((c : Thread nD τ).loc main_arg1)
abbrev A2 (c : Dev nD) : (⟨1, ![600]⟩ : Shape).Idx → EReal := m ((c : Thread nD τ).loc main_arg2)
abbrev A3 (c : Dev nD) : (⟨2, ![512, 600]⟩ : Shape).Idx → BitVec 32 := m ((c : Thread nD τ).loc main_arg3)
abbrev A4 (c : Dev nD) : (⟨2, ![512, 600]⟩ : Shape).Idx → EReal := m ((c : Thread nD τ).loc main_arg4)

/-! ## The blocks read through their windows -/

/-- Block t of the features at (p, k) is the feature matrix at (p, 3584 t + k). -/
theorem blk0 (c : Dev nD) (t : Fin cfg0.N) (p : Fin 512) (k : Fin 3584) :
    (iblk m c 0 t : (⟨2, ![512, 3584]⟩ : Shape).Idx → EReal) (ix2 p k)
      = A0 m c (ix2 p ⟨t.val * 3584 + k.val, by have := lt7 t; have := k.isLt; omega⟩) := by
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t 0 * 512 + 1 * p.val = p.val; rw [(idx0 t).1]; omega
  | ⟨1, _⟩ => show win0_0.index t 1 * 3584 + 1 * k.val = t.val * 3584 + k.val; rw [(idx0 t).2]; omega

/-- Block t of the weights at (q, k) is the weight matrix at (q, 3584 t + k). -/
theorem blk1 (c : Dev nD) (t : Fin cfg0.N) (q : Fin 600) (k : Fin 3584) :
    (iblk m c 1 t : (⟨2, ![600, 3584]⟩ : Shape).Idx → EReal) (ix2 q k)
      = A1 m c (ix2 q ⟨t.val * 3584 + k.val, by have := lt7 t; have := k.isLt; omega⟩) := by
  unfold iblk
  rw [View.read_apply]
  show V m c main_arg1 (((cfg0.win 1).blk t).view.emb (ix2 q k)) = _
  rw [V_main_arg1]
  refine congrArg _ (funext fun a => Fin.ext ?_)
  match a with
  | ⟨0, _⟩ => show win0_1.index t 0 * 600 + 1 * q.val = q.val; rw [(idx1 t).1]; omega
  | ⟨1, _⟩ => show win0_1.index t 1 * 3584 + 1 * k.val = t.val * 3584 + k.val; rw [(idx1 t).2]; omega

/-- The labels' block is the label array. -/
theorem blk3 (c : Dev nD) (t : Fin cfg0.N) (p : Fin 512) (q : Fin 600) :
    (iblk m c 3 t : (⟨2, ![512, 600]⟩ : Shape).Idx → BitVec 32) (ix2 p q) = A3 m c (ix2 p q) := by
  unfold iblk
  rw [View.read_apply]
  show V m c main_arg3 (((cfg0.win 3).blk t).view.emb (ix2 p q)) = _
  rw [V_main_arg3]
  refine congrArg _ (funext fun a => Fin.ext ?_)
  match a with
  | ⟨0, _⟩ => show win0_3.index t 0 * 512 + 1 * p.val = p.val; rw [(idx3 t).1]; omega
  | ⟨1, _⟩ => show win0_3.index t 1 * 600 + 1 * q.val = q.val; rw [(idx3 t).2]; omega

/-- The mask's block is the mask array. -/
theorem blk4 (c : Dev nD) (t : Fin cfg0.N) (p : Fin 512) (q : Fin 600) :
    (iblk m c 4 t : (⟨2, ![512, 600]⟩ : Shape).Idx → EReal) (ix2 p q) = A4 m c (ix2 p q) := by
  unfold iblk
  rw [View.read_apply]
  show V m c main_arg4 (((cfg0.win 4).blk t).view.emb (ix2 p q)) = _
  rw [V_main_arg4]
  refine congrArg _ (funext fun a => Fin.ext ?_)
  match a with
  | ⟨0, _⟩ => show win0_4.index t 0 * 512 + 1 * p.val = p.val; rw [(idx4 t).1]; omega
  | ⟨1, _⟩ => show win0_4.index t 1 * 600 + 1 * q.val = q.val; rw [(idx4 t).2]; omega

/-- The bias row as the region finds it: the bias vector with a unit axis put in front. -/
theorem V_bias (c : Dev nD) :
    (V m c main_v0 : (⟨2, ![1, 600]⟩ : Shape).Idx → EReal) = shapeCast S1x600 (A2 m c) shapeCasts_S600_S1x600 := by
  show StableHlo.after hostOps0 (fun b => m (c, b)) (Proc.devRef .tc main_v0) = _
  after_results
  rfl

/-- The bias block at (0, q) is the bias vector at q. -/
theorem blk2 (c : Dev nD) (t : Fin cfg0.N) (q : Fin 600) :
    (iblk m c 2 t : (⟨2, ![1, 600]⟩ : Shape).Idx → EReal) (ix2 (0 : Fin 1) q) = A2 m c (ix1 q) := by
  unfold iblk
  rw [View.read_apply]
  show V m c main_v0 (((cfg0.win 2).blk t).view.emb (ix2 (0 : Fin 1) q)) = _
  rw [V_bias]
  refine Eq.trans ?_ (shapeCast_a_1a_apply (A2 m c) shapeCasts_S600_S1x600 (0 : Fin 1) q)
  refine congrArg _ (funext fun a => Fin.ext ?_)
  match a with
  | ⟨0, _⟩ => show win0_2.index t 0 * 1 + 1 * 0 = 0; rw [(idx2 t).1]
  | ⟨1, _⟩ => show win0_2.index t 1 * 600 + 1 * q.val = q.val; rw [(idx2 t).2]; omega

/-! ## One accumulation step, and the running sum -/

/-- One step at (p, q): what was there plus the sum over the block's columns of the products. -/
theorem step_apply (x0 : FVec Ideal S512x3584 .f32) (x1 : FVec Ideal S600x3584 .f32) (acc : FVec Ideal S512x600 .f32)
    (p : Fin 512) (q : Fin 600) :
    step (F := Ideal) x0 x1 acc (ix2 p q) = acc (ix2 p q) + ∑ k : Fin 3584, x0 (ix2 p k) * x1 (ix2 q k) := by
  show (addf (F := Ideal) (shapeCast S512x600 acc shapeCasts_S512x600_S512x600)
    (matmul (F := Ideal) dot_S512x3584_S600x3584_S512x600_1_1_0_0_n_n none (truncf (F := Ideal) .bf16 x0 bitsLt_bf16_f32)
      (truncf (F := Ideal) .bf16 x1 bitsLt_bf16_f32) (constant (F := Ideal) S512x600 .f32 0x00000000#32))) (ix2 p q) = _
  rw [addf_apply, shapeCast_self]
  refine congrArg (acc (ix2 p q) + ·) ?_
  refine (Ideal.matmul_constant_zero_apply _ none _ _ (ix2 p q)).trans ?_
  exact Cert.Alg.contrT_apply dot_S512x3584_S600x3584_S512x600_1_1_0_0_n_n_wf x0 x1 p q

/-- The running sum after point n at (p, q): the terms of the columns below 3584 (n + 1), block by block. -/
theorem accAt_apply (c : Dev nD) (p : Fin 512) (q : Fin 600) : ∀ (n : ℕ) (h : n < cfg0.N),
    accAt m c n h (ix2 p q)
      = ∑ t ∈ range (n + 1), ∑ k ∈ range 3584, Cert.Alg.term (A0 m c) (A1 m c) p q (t * 3584 + k)
  | 0, h => by
    show step (iblk m c 0 ⟨0, h⟩) (iblk m c 1 ⟨0, h⟩) (k0_pay1 (F := Ideal)) (ix2 p q) = _
    rw [step_apply, Cert.Alg.sum_block (A0 m c) (A1 m c) _ _ 0 (by omega) (fun a k => blk0 m c ⟨0, h⟩ a k)
      (fun b k => blk1 m c ⟨0, h⟩ b k) p q, sum_range_one]
    show Ideal.ofBits .f32 0x00000000#32 + _ = _
    rw [Ideal.ofBits_zero_f32, zero_add]
  | n + 1, h => by
    have h7 : n + 1 < 7 := lt_of_lt_of_eq h (show cfg0.N = 7 from N_0)
    show step (iblk m c 0 ⟨n + 1, h⟩) (iblk m c 1 ⟨n + 1, h⟩) (accAt m c n (Nat.lt_of_succ_lt h)) (ix2 p q) = _
    rw [step_apply, accAt_apply c p q n, Cert.Alg.sum_block (A0 m c) (A1 m c) _ _ (n + 1) (by omega)
      (fun a k => blk0 m c ⟨n + 1, h⟩ a k) (fun b k => blk1 m c ⟨n + 1, h⟩ b k) p q, ← sum_range_succ]

/-- So after the last point it is the whole contraction over the 25088 columns. -/
theorem acc_last (c : Dev nD) (p : Fin 512) (q : Fin 600) :
    accAt m c 6 t0_6.isLt (ix2 p q) = ∑ k : Fin 25088, A0 m c (ix2 p k) * A1 m c (ix2 q k) := by
  refine (accAt_apply m c p q 6 t0_6.isLt).trans ?_
  rw [Cert.Alg.sum_cols]
  exact (Cert.Alg.sum_range_blocks 3584 _ 7).symm

/-! ## The masked loss at an index -/

/-- The score the loss is taken of: the accumulated sum plus the bias of the column. -/
theorem score_apply (acc : FVec Ideal S512x600 .f32) (x2 : FVec Ideal S1x600 .f32) (p : Fin 512) (q : Fin 600) :
    k0_pay4 (F := Ideal) acc x2 (ix2 p q) = acc (ix2 p q) + x2 (ix2 (0 : Fin 1) q) := by
  show (addf (F := Ideal) (shapeCast S512x600 acc shapeCasts_S512x600_S512x600)
    (broadcastTo S512x600 (shapeCast S1x600 x2 shapeCasts_S1x600_S1x600) broadcasts_S1x600_S512x600)) (ix2 p q) = _
  rw [addf_apply, shapeCast_self, shapeCast_self, broadcastTo_1b_ab_apply]

/-- The last point's block at (p, q): the masked loss, in the kernel's spelling, of the score, the label and the mask. -/
theorem loss_apply (acc : FVec Ideal S512x600 .f32) (x2 : FVec Ideal S1x600 .f32) (x3 : IVec S512x600 32)
    (x4 : FVec Ideal S512x600 .f32) (p : Fin 512) (q : Fin 600) :
    loss (F := Ideal) acc x2 x3 x4 (ix2 p q)
      = Cert.Alg.lossAtK (acc (ix2 p q) + x2 (ix2 (0 : Fin 1) q)) (((x3 (ix2 p q)).toInt : ℝ) : EReal) (x4 (ix2 p q)) := by
  have key : loss (F := Ideal) acc x2 x3 x4 (ix2 p q)
      = Cert.Alg.lossAtK (k0_pay4 (F := Ideal) acc x2 (ix2 p q)) (((x3 (ix2 p q)).toInt : ℝ) : EReal) (x4 (ix2 p q)) := rfl
  rw [key, score_apply]

/-- The result array at (p, q): the masked loss of the full score. -/
theorem result_apply (c : Dev nD) (p : Fin 512) (q : Fin 600) :
    result m c (ix2 p q)
      = Cert.Alg.lossAtK ((∑ k : Fin 25088, A0 m c (ix2 p k) * A1 m c (ix2 q k)) + A2 m c (ix1 q))
          (((A3 m c (ix2 p q)).toInt : ℝ) : EReal) (A4 m c (ix2 p q)) := by
  show loss (accAt m c 6 t0_6.isLt) (iblk m c 2 t0_6) (iblk m c 3 t0_6) (iblk m c 4 t0_6) (ix2 p q) = _
  rw [loss_apply, acc_last, blk2, blk3, blk4]

end Cert.KernelIdeal.KRead

end
-- ==== Proof.RefRun.lean ====
/-
  The run of the reference program's @main, read back as a pure term of its five argument arrays.

  @main is a straight line: a contraction of the two matrices plus a broadcast bias (the scores z), then
  log σ(z) and log σ(−z) — each the outlined log-sigmoid  −softplus(−x), softplus itself the stable form
  max(x, 0) + log1p(exp(−|x − 0|)) guarded by a self-comparison —, the labels' weighted sum of the two, the
  weights' product, the sum over all 512 × 600 entries, the division by 307200 and a final negation.
  The two calls of log-sigmoid (each with its nested call of softplus) are listed operation by operation at
  their call sites, over the buffers each call names, so that @main is one list of fifty operations; the
  library's theorem on such lists gives every buffer's final contents as the fold of the operations' results,
  and that fold at the result buffer is the composed term `out` by computation.
-/
import proofs.«180961_j55602646614714_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- the zero array both softplus calls splat -/
def zeros : (⟨S512x600, .f32⟩ : BufTy).Contents (Elt F) :=
  broadcastInDim S512x600 ![] bcast_S_S512x600 (constant S_ .f32 0x00000000#32)

/-- @softplus's result as a term of its operand, operation by operation as printed: where z − 0 differs from
    itself (a NaN) the sum z + 0, elsewhere max(z, 0) + log1p(exp(−|z − 0|)) -/
def softplus (z : (⟨S512x600, .f32⟩ : BufTy).Contents (Elt F)) : (⟨S512x600, .f32⟩ : BufTy).Contents (Elt F) :=
  select (cmpf .une (subf z zeros) (subf z zeros)) (addf z zeros)
    (addf (maximumf z zeros) (Host.log1p (Host.exp (Host.negf (Host.absf (subf z zeros))))))

/-- @log_sigmoid's result: −softplus(−x) -/
def logsig (x : (⟨S512x600, .f32⟩ : BufTy).Contents (Elt F)) : (⟨S512x600, .f32⟩ : BufTy).Contents (Elt F) :=
  Host.negf (softplus (Host.negf x))

/-- the scores: the contraction of the two matrices over their second axes, plus the bias along the rows -/
def scores (a0 : (⟨S512x25088, .f32⟩ : BufTy).Contents (Elt F)) (a1 : (⟨S600x25088, .f32⟩ : BufTy).Contents (Elt F)) (a2 : (⟨S600, .f32⟩ : BufTy).Contents (Elt F)) : (⟨S512x600, .f32⟩ : BufTy).Contents (Elt F) :=
  addf (Host.dotGeneral dot_S512x25088_S600x25088_S512x600_1_1_0_0_n_n none a0 a1)
    (broadcastInDim S512x600 ![0, 1] bcast_S1x600_S512x600_0_1 (broadcastInDim S1x600 ![1] bcast_S600_S1x600_1 a2))

/-- the weighted entries: w · (y · log σ(z) + (1 − y) · log σ(−z)), y the labels converted to floats -/
def elem (a0 : (⟨S512x25088, .f32⟩ : BufTy).Contents (Elt F)) (a1 : (⟨S600x25088, .f32⟩ : BufTy).Contents (Elt F)) (a2 : (⟨S600, .f32⟩ : BufTy).Contents (Elt F))
    (a3 : (⟨S512x600, .i32⟩ : BufTy).Contents (Elt F)) (a4 : (⟨S512x600, .f32⟩ : BufTy).Contents (Elt F)) : (⟨S512x600, .f32⟩ : BufTy).Contents (Elt F) :=
  mulf a4 (addf (mulf (sitofp .f32 a3) (logsig (scores a0 a1 a2)))
    (mulf (subf (broadcastInDim S512x600 ![] bcast_S_S512x600 (constant S_ .f32 0x3F800000#32)) (sitofp .f32 a3))
      (logsig (Host.negf (scores a0 a1 a2)))))

/-- the result: minus the entries' sum divided by 307200 -/
def out (a0 : (⟨S512x25088, .f32⟩ : BufTy).Contents (Elt F)) (a1 : (⟨S600x25088, .f32⟩ : BufTy).Contents (Elt F)) (a2 : (⟨S600, .f32⟩ : BufTy).Contents (Elt F))
    (a3 : (⟨S512x600, .i32⟩ : BufTy).Contents (Elt F)) (a4 : (⟨S512x600, .f32⟩ : BufTy).Contents (Elt F)) : (⟨S_, .f32⟩ : BufTy).Contents (Elt F) :=
  Host.negf (Host.divf
    (Host.reduceAdd (elem a0 a1 a2 a3 a4) (constant S_ .f32 0x00000000#32) reducesTo_S512x600_S_d0_1 h_S_)
    (constant S_ .f32 0x48960000#32))

/-! ## @main as a list of operations -/

/-- @main's fifty operations in order, the calls unfolded: five for the scores and the labels' conversion; the
    first log-sigmoid (its negation, softplus's fourteen, its negation) into `main_call0`'s buffers; five more of
    @main's (a product, the constant one and its splat, 1 − y, the scores' negation); the second log-sigmoid into
    `main_call1`'s; then @main's last eight. -/
abbrev ops : List (HloOp τ sig (Elt F)) :=
  [ binary main_arg0 main_arg1 main_v0 (fun l r => Host.dotGeneral dot_S512x25088_S600x25088_S512x600_1_1_0_0_n_n none l r),
    unary main_arg2 main_v1 (broadcastInDim S1x600 ![1] bcast_S600_S1x600_1),
    unary main_v1 main_v2 (broadcastInDim S512x600 ![0, 1] bcast_S1x600_S512x600_0_1),
    binary main_v0 main_v2 main_v3 addf,
    unary main_arg3 main_v4 (sitofp .f32),
    TRef.unary (.of main_v3) main_call0.v0 Host.negf,
    TRef.nullary main_call0.call0.cst (constant S_ .f32 0x00000000#32),
    TRef.unary main_call0.call0.cst main_call0.call0.v0 (broadcastInDim S512x600 ![] bcast_S_S512x600),
    TRef.binary main_call0.v0 main_call0.call0.v0 main_call0.call0.v1 maximumf,
    TRef.unary main_call0.call0.cst main_call0.call0.v2 (broadcastInDim S512x600 ![] bcast_S_S512x600),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S512x600 ![] bcast_S_S512x600),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    binary main_v4 main_v5 main_v6 mulf,
    nullary main_cst (constant S_ .f32 0x3F800000#32),
    unary main_cst main_v7 (broadcastInDim S512x600 ![] bcast_S_S512x600),
    binary main_v7 main_v4 main_v8 subf,
    unary main_v3 main_v9 Host.negf,
    TRef.unary (.of main_v9) main_call1.v0 Host.negf,
    TRef.nullary main_call1.call0.cst (constant S_ .f32 0x00000000#32),
    TRef.unary main_call1.call0.cst main_call1.call0.v0 (broadcastInDim S512x600 ![] bcast_S_S512x600),
    TRef.binary main_call1.v0 main_call1.call0.v0 main_call1.call0.v1 maximumf,
    TRef.unary main_call1.call0.cst main_call1.call0.v2 (broadcastInDim S512x600 ![] bcast_S_S512x600),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S512x600 ![] bcast_S_S512x600),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_v8 main_v10 main_v11 mulf,
    binary main_v6 main_v11 main_v12 addf,
    binary main_arg4 main_v12 main_v13 mulf,
    nullary main_cst_0 (constant S_ .f32 0x00000000#32),
    binary main_v13 main_cst_0 main_v14 (fun x v => Host.reduceAdd x v reducesTo_S512x600_S_d0_1 h_S_),
    nullary main_cst_1 (constant S_ .f32 0x48960000#32),
    binary main_v14 main_cst_1 main_v15 Host.divf,
    unary main_v15 main_v16 Host.negf ]

-- fifty binds re-associated: the rewrite under the chain recurses once per statement
set_option maxRecDepth 2048 in
/-- @main is that straight line: the two functions' definitions unfolded at their calls, both sides are one chain
    of operation steps once sequencing is reassociated. -/
theorem main_eq (c : Dev nD) : main (F := F) c = seq ops := by
  simp only [main, fn_log_sigmoid.body, fn_softplus.body, seq, bind_assoc, pure_bind]
  rfl

/-! ## The fold at the result and at the arguments -/

attribute [local irreducible] Host.reduceAdd in
set_option maxRecDepth 8192 in
/-- The fold at the result buffer is `out`: each operation's result at its own buffer is its function's value, at
    any other buffer what was there; the typed references' casts are the identity at these literal references.
    The sum over the entries is kept folded meanwhile (the contraction is the float instance's own, with nothing
    to unfold at a generic instance): the equation never looks inside either. -/
theorem out_eq (V : Valuation τ sig (Elt F)) :
    after ops V (main_v16 : DevRef τ sig) = out (V (main_arg0 : DevRef τ sig)) (V (main_arg1 : DevRef τ sig)) (V (main_arg2 : DevRef τ sig)) (V (main_arg3 : DevRef τ sig)) (V (main_arg4 : DevRef τ sig)) := by
  after_results_simp
  rfl

/-- No operation writes argument 0's buffer. -/
theorem arg0_eq (V : Valuation τ sig (Elt F)) :
    after ops V (main_arg0 : DevRef τ sig) = V (main_arg0 : DevRef τ sig) := by
  after_results_simp

/-- No operation writes argument 1's buffer. -/
theorem arg1_eq (V : Valuation τ sig (Elt F)) :
    after ops V (main_arg1 : DevRef τ sig) = V (main_arg1 : DevRef τ sig) := by
  after_results_simp

/-- No operation writes argument 2's buffer. -/
theorem arg2_eq (V : Valuation τ sig (Elt F)) :
    after ops V (main_arg2 : DevRef τ sig) = V (main_arg2 : DevRef τ sig) := by
  after_results_simp

/-- No operation writes argument 3's buffer. -/
theorem arg3_eq (V : Valuation τ sig (Elt F)) :
    after ops V (main_arg3 : DevRef τ sig) = V (main_arg3 : DevRef τ sig) := by
  after_results_simp

/-- No operation writes argument 4's buffer. -/
theorem arg4_eq (V : Valuation τ sig (Elt F)) :
    after ops V (main_arg4 : DevRef τ sig) = V (main_arg4 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub .., unary_bufs_sub ..,
    unary_bufs_sub .., nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub .., binary_bufs_sub ..,
    ternary_bufs_sub .., unary_bufs_sub ..,
    binary_bufs_sub .., nullary_bufs_sub .., unary_bufs_sub .., binary_bufs_sub .., unary_bufs_sub ..,
    unary_bufs_sub .., nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub .., binary_bufs_sub ..,
    ternary_bufs_sub .., unary_bufs_sub ..,
    binary_bufs_sub .., binary_bufs_sub .., binary_bufs_sub .., nullary_bufs_sub .., binary_bufs_sub .., nullary_bufs_sub ..,
    binary_bufs_sub .., unary_bufs_sub ..⟩

/-- On every device, for any float values, from any memory with zero counters: every weakly fair execution of
    @main terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v16).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefRead.lean ====
/-
  The reference's weighted-entries array read at one index, at the ideal values (a float an extended real, every
  operation its textbook one).

  Entry (p, q) of the scores is row p of the first matrix against row q of the second, summed over the 25088
  columns, plus entry q of the bias: the contraction read at an index is the sum over its one contracted axis, and
  the bias reaches the 512 × 600 array through two broadcasts ([600] → [1, 600] → [512, 600]) that read, at (p, q),
  its entry q. Every other operation of the array is elementwise, so that the entry is a function of the score, the
  label and the weight at (p, q) alone: the masked loss  w · (y · log σ(s) + (1 − y) · log σ(−s)),  with
  log σ(x) = −softplus(−x) and softplus in its guarded stable form, exactly as the shared specification spells it.
-/
import proofs.«180961_j55602646614714_2_alg».proof.Proof.RefRun
import proofs.«180961_j55602646614714_2_alg».proof.Proof.Algebra
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx

/-! ## The elementwise part -/

/-- softplus of an array, read at an index, is the specification's softplus of the entry: the zero splat reads the
    extended real of +0.0 everywhere, and each operation reads through to the entries. -/
theorem softplus_apply (z : (⟨S512x600, .f32⟩ : BufTy).Contents (Elt Ideal)) (i : S512x600.Idx) :
    softplus (F := Ideal) z i = Cert.Alg.sp (z i) := rfl

/-- log-sigmoid of an array, read at an index, is the specification's log-sigmoid of the entry. -/
theorem logsig_apply (x : (⟨S512x600, .f32⟩ : BufTy).Contents (Elt Ideal)) (i : S512x600.Idx) :
    logsig (F := Ideal) x i = Cert.Alg.ls (x i) := rfl

/-- The weighted entries over ANY array of scores `s`, read at an index: the masked loss of the score, the label
    (the signed integer as a real) and the weight there. -/
theorem loss_apply (s : (⟨S512x600, .f32⟩ : BufTy).Contents (Elt Ideal)) (a3 : S512x600.Idx → BitVec 32) (a4 : S512x600.Idx → EReal) (i : S512x600.Idx) :
    mulf (F := Ideal) a4 (addf (mulf (sitofp .f32 a3) (logsig (F := Ideal) s))
        (mulf (subf (broadcastInDim S512x600 ![] bcast_S_S512x600 (constant (F := Ideal) S_ .f32 0x3F800000#32)) (sitofp .f32 a3))
          (logsig (F := Ideal) (Host.negf (F := Ideal) (φ := .f32) s)))) i
      = Cert.Alg.lossAt (s i) (((a3 i).toInt : ℝ) : EReal) (a4 i) := rfl

/-! ## The scores at an index -/

/-- The bias through its two broadcasts, read at (p, q), is its entry q: the first puts it on axis 1 of a one-row
    array, the second repeats that row 512 times. -/
theorem bias_apply (a2 : S600.Idx → EReal) (p : Fin 512) (q : Fin 600) :
    broadcastInDim S512x600 ![0, 1] bcast_S1x600_S512x600_0_1 (broadcastInDim S1x600 ![1] bcast_S600_S1x600_1 a2) (ix2 p q)
      = a2 (ix1 q) := by
  refine (broadcastInDim_apply _ _ _ (ix2 p q) (ix2 (0 : Fin 1) q)
    (fun a => match a with | ⟨0, _⟩ => rfl | ⟨1, _⟩ => rfl)).trans ?_
  exact broadcastInDim_apply _ _ a2 (ix2 (0 : Fin 1) q) (ix1 q) (fun a => match a with | ⟨0, _⟩ => rfl)

/-- The contraction read at (p, q): the sum over the columns c of A(p, c) · B(q, c). -/
theorem dot_apply (a0 : S512x25088.Idx → EReal) (a1 : S600x25088.Idx → EReal) (p : Fin 512) (q : Fin 600) :
    Host.dotGeneral (F := Ideal) (φ₁ := .f32) (φ₂ := .f32) dot_S512x25088_S600x25088_S512x600_1_1_0_0_n_n none a0 a1 (ix2 p q)
      = ∑ c : Fin 25088, a0 (ix2 p c) * a1 (ix2 q c) := by
  show FloatOps.dotGeneral (F := Ideal) (φ₁ := .f32) (φ₂ := .f32) _ _ _ a0 a1 (ix2 p q) = _
  rw [Ideal.dotGeneral_apply]
  exact Cert.Alg.contrT_apply dot_S512x25088_S600x25088_S512x600_1_1_0_0_n_n_wf a0 a1 p q

/-- The scores at (p, q): the contraction's sum plus the bias's entry q. -/
theorem scores_apply (a0 : S512x25088.Idx → EReal) (a1 : S600x25088.Idx → EReal) (a2 : S600.Idx → EReal)
    (p : Fin 512) (q : Fin 600) :
    scores (F := Ideal) a0 a1 a2 (ix2 p q) = (∑ c : Fin 25088, a0 (ix2 p c) * a1 (ix2 q c)) + a2 (ix1 q) := by
  unfold scores
  rw [addf_apply, dot_apply, bias_apply]

/-! ## The weighted entries at an index -/

/-- Entry (p, q) of the reference's weighted entries is the masked loss of the score, the label and the weight at
    (p, q). -/
theorem elem_apply (a0 : S512x25088.Idx → EReal) (a1 : S600x25088.Idx → EReal) (a2 : S600.Idx → EReal)
    (a3 : S512x600.Idx → BitVec 32) (a4 : S512x600.Idx → EReal) (p : Fin 512) (q : Fin 600) :
    elem (F := Ideal) a0 a1 a2 a3 a4 (ix2 p q)
      = Cert.Alg.lossAt ((∑ c : Fin 25088, a0 (ix2 p c) * a1 (ix2 q c)) + a2 (ix1 q))
          (((a3 (ix2 p q)).toInt : ℝ) : EReal) (a4 (ix2 p q)) := by
  unfold elem
  rw [loss_apply, scores_apply]

end Cert.ReferenceIdeal.RefRead

end
-- ==== Proof.Bridge.lean ====
/-
  The two programs joined.

  The kernel's program ends with its result at  (-(sum of the entries)) / 307200  of the array the last grid point
  leaves, the reference's at  -((sum of the entries) / 307200)  of its weighted-entries array. The two arrays are
  one function of the arguments, entry by entry: both are the masked loss of the same score — the accumulated
  contraction over all 25088 columns plus the bias — of the same label and the same mask, the kernel writing every
  negation as a subtraction from zero (`entries_eq`). The sums of equal arrays are equal, and the sign commutes with
  the division by the number of elements (`out_eq`). No finiteness of the inputs is used: only commutativity and
  associativity of the sum, and that a sign leaves a product.
-/
import proofs.«180961_j55602646614714_2_alg».proof.Proof.KRead
import proofs.«180961_j55602646614714_2_alg».proof.Proof.RefRead

noncomputable section

open Idealize.ShloMosaic Idealize.ShloMosaic.TcCoe Idealize.SL.Sem

/-! ## The kernel's run, read -/

namespace Cert.KernelIdeal.KRun

open Cert.KernelIdeal Cert.KernelIdeal.Gen Cert.KernelIdeal.KValue

variable {F : FTy → Type} [FloatOps F]
variable (m : (ℓ : Loc nD τ sig) → Buf (Elt F) ℓ) (ρ : Dev nD → PrngReg)

/-- Every weakly fair execution of the kernel's program ends with the result buffer at the host tail of the array
    the last grid point leaves, and with the five arguments unchanged. -/
theorem run : θ_run defs (onTc (τ := τ) (main (F := F))) ⟨m, fun _ => 0, ρ⟩ fun r => ∀ c : Dev nD,
      r.2.mem ((c.tc : Thread nD τ).loc main_v4) = tail (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.KRun

/-! ## One function of the arguments -/

namespace Cert.Bridge

open Idealize.ShloMosaic.ValueIdx
open Cert.KernelIdeal.KRead (A0 A1 A2 A3 A4)

variable (m : (ℓ : Loc Cert.KernelIdeal.nD Cert.KernelIdeal.τ Cert.KernelIdeal.sig) → Buf (Elt Ideal) ℓ)

/-- The array the kernel's last grid point leaves is the reference's weighted-entries array of the same arguments. -/
theorem entries_eq (c : Dev Cert.KernelIdeal.nD) :
    (Cert.KernelIdeal.KValue.result m c : (⟨2, ![512, 600]⟩ : Shape).Idx → EReal)
      = Cert.ReferenceIdeal.RefRun.elem (F := Ideal) (A0 m c) (A1 m c) (A2 m c) (A3 m c) (A4 m c) := by
  funext j
  obtain ⟨p, q, rfl⟩ : ∃ (p : Fin 512) (q : Fin 600), j = ix2 p q := ⟨j 0, j 1, eq_ix2 j⟩
  rw [Cert.KernelIdeal.KRead.result_apply, Cert.ReferenceIdeal.RefRead.elem_apply, Cert.Alg.lossAtK_eq]

/-- So the two results are equal: the same total, and the sign commutes with the division. -/
theorem out_eq (c : Dev Cert.KernelIdeal.nD) :
    Cert.KernelIdeal.KValue.tail (F := Ideal) (Cert.KernelIdeal.KValue.result m c)
      = Cert.ReferenceIdeal.RefRun.out (F := Ideal) (A0 m c) (A1 m c) (A2 m c) (A3 m c) (A4 m c) := by
  unfold Cert.KernelIdeal.KValue.tail Cert.ReferenceIdeal.RefRun.out
  rw [entries_eq]
  funext i
  exact Cert.Alg.div_neg_count _

end Cert.Bridge

end
-- ==== Proof.lean ====
/-
  The certificate of the masked multilabel loss kernel against its reference.

  The kernel computes the scores  features · weightsᵀ + bias  one block of 3584 feature columns at a time, the
  512 x 600 output block resident across the seven grid points as the accumulator; at the last point it overwrites
  the block with  mask · (y · log σ(score) + (1 - y) · log σ(-score)),  and the host then negates the array's total
  and divides by its 307200 elements. The reference takes one contraction over all 25088 columns, the same loss
  entry by entry, the mean, and the negation.

  The three frames: the two kernel programs' are the generated frame runs; the reference's is its run (a straight
  line of fifty host operations) with the result dropped. The idealization rewrote no operation, so there is
  nothing to preserve. On the extended reals the two results are equal (`Cert.Bridge.out_eq`): rounding to
  bfloat16 is the identity there, the blockwise accumulation is a regrouping of one sum, zero minus x is minus x,
  and the sign commutes with the division by a nonzero real.
-/
import proofs.«180961_j55602646614714_2_alg».proof.Defs
import proofs.«180961_j55602646614714_2_alg».proof.Proof.Gen.Kernel
import proofs.«180961_j55602646614714_2_alg».proof.Proof.Gen.Kernel.Frame
import proofs.«180961_j55602646614714_2_alg».proof.Proof.Gen.KernelIdeal
import proofs.«180961_j55602646614714_2_alg».proof.Proof.Gen.KernelIdeal.Frame
import proofs.«180961_j55602646614714_2_alg».proof.Proof.Gen.ReferenceIdeal
import proofs.«180961_j55602646614714_2_alg».proof.Proof.Gen.Pre_finite_inputs
import proofs.«180961_j55602646614714_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization is the program's own text read on the extended reals. -/
theorem preserves : Cert.preserves_Kernel_KernelIdeal := trivial

/-- From memories agreeing on the arguments both programs run, and end with equal results. -/
theorem algebraic : Cert.algebraic_KernelIdeal_ReferenceIdeal := by
  intro m ρ m' ρ' _ hagree
  refine ⟨fun c => Cert.KernelIdeal.KValue.tail (Cert.KernelIdeal.KValue.result m c),
    Cert.KernelIdeal.KRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact (Cert.Bridge.out_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
